-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S6144x4096 : Shape := ⟨2, ![6144, 4096]⟩
abbrev S48x32 : Shape := ⟨2, ![48, 32]⟩
abbrev S6144 : Shape := ⟨1, ![6144]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S6144x4096 : S_.BroadcastsInDim S6144x4096 (![] : Fin 0 → Fin S6144x4096.rank)
  reducesTo_S6144x4096_S_d0_1 : S6144x4096.ReducesTo [0, 1] S_
  bcast_S_S48x32 : S_.BroadcastsInDim S48x32 (![] : Fin 0 → Fin S48x32.rank)
  reducesTo_S48x32_S_d0_1 : S48x32.ReducesTo [0, 1] S_
  bcast_S_S6144 : S_.BroadcastsInDim S6144 (![] : Fin 0 → Fin S6144.rank)
  reducesTo_S6144_S_d0 : S6144.ReducesTo [0] S_

variable [Facts]

def fn_part1 {F : FTy → Type} [FloatOps F] (main_v13 : IVec S_ 1) (main_v16 : IVec S6144 1) : IVec S_ 1 :=
  let main_c_5 : IVec S_ 1 := constantI S_ 1 1#1
  let main_v17 : IVec S_ 1 := (fun x v => Host.reduce IntOp.andi x v reducesTo_S6144_S_d0 h_S_) main_v16 main_c_5
  let main_v18 : IVec S_ 1 := andi main_v13 main_v17
  main_v18

def fn {F : FTy → Type} [FloatOps F] (main_arg0 : FVec F S4x2048x4096 .f32) (main_arg1 : FVec F S6144x4096 .f32) (main_arg2 : FVec F S48x32 .f32) (main_arg3 : FVec F S6144 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S6144x4096 .f32 := Host.absf main_arg1
  let main_cst_0 : FVec F S_ .f32 := constant S_ .f32 0x7F800000#32
  let main_v5 : FVec F S6144x4096 .f32 := broadcastInDim S6144x4096 ![] bcast_S_S6144x4096 main_cst_0
  let main_v6 : IVec S6144x4096 1 := cmpf .olt main_v4 main_v5
  let main_c_1 : IVec S_ 1 := constantI S_ 1 1#1
  let main_v7 : IVec S_ 1 := (fun x v => Host.reduce IntOp.andi x v reducesTo_S6144x4096_S_d0_1 h_S_) main_v6 main_c_1
  let main_v8 : IVec S_ 1 := andi main_v3 main_v7
  let main_v9 : FVec F S48x32 .f32 := Host.absf main_arg2
  let main_cst_2 : FVec F S_ .f32 := constant S_ .f32 0x7F800000#32
  let main_v10 : FVec F S48x32 .f32 := broadcastInDim S48x32 ![] bcast_S_S48x32 main_cst_2
  let main_v11 : IVec S48x32 1 := cmpf .olt main_v9 main_v10
  let main_c_3 : IVec S_ 1 := constantI S_ 1 1#1
  let main_v12 : IVec S_ 1 := (fun x v => Host.reduce IntOp.andi x v reducesTo_S48x32_S_d0_1 h_S_) main_v11 main_c_3
  let main_v13 : IVec S_ 1 := andi main_v8 main_v12
  let main_v14 : FVec F S6144 .f32 := Host.absf main_arg3
  let main_cst_4 : FVec F S_ .f32 := constant S_ .f32 0x7F800000#32
  let main_v15 : FVec F S6144 .f32 := broadcastInDim S6144 ![] bcast_S_S6144 main_cst_4
  let main_v16 : IVec S6144 1 := cmpf .olt main_v14 main_v15
  fn_part1 (F := F) main_v13 main_v16
-- ==== Kernel.lean ====
abbrev S4x2048x4096 : Shape := ⟨3, ![4, 2048, 4096]⟩
abbrev S6144x4096 : Shape := ⟨2, ![6144, 4096]⟩
abbrev S48x32 : Shape := ⟨2, ![48, 32]⟩
abbrev S6144 : Shape := ⟨1, ![6144]⟩
abbrev S48x128x32 : Shape := ⟨3, ![48, 128, 32]⟩
abbrev S6144x32 : Shape := ⟨2, ![6144, 32]⟩
abbrev S6144x32x128 : Shape := ⟨3, ![6144, 32, 128]⟩
abbrev S8192x4096 : Shape := ⟨2, ![8192, 4096]⟩
abbrev S1x6144 : Shape := ⟨2, ![1, 6144]⟩
abbrev S8192x6144 : Shape := ⟨2, ![8192, 6144]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S4x2048x6144 : Shape := ⟨3, ![4, 2048, 6144]⟩

abbrev nBuf : Space → Nat
  | .hbm => 15
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S6144x4096, .f32⟩
  | .hbm, ⟨2, _⟩ => ⟨S48x32, .f32⟩
  | .hbm, ⟨3, _⟩ => ⟨S6144, .f32⟩
  | .hbm, ⟨4, _⟩ => ⟨S48x128x32, .f32⟩
  | .hbm, ⟨5, _⟩ => ⟨S6144x32, .f32⟩
  | .hbm, ⟨6, _⟩ => ⟨S6144x32x128, .f32⟩
  | .hbm, ⟨7, _⟩ => ⟨S6144x4096, .f32⟩
  | .hbm, ⟨8, _⟩ => ⟨S6144x4096, .f32⟩
  | .hbm, ⟨9, _⟩ => ⟨S6144x4096, .bf16⟩
  | .hbm, ⟨10, _⟩ => ⟨S8192x4096, .f32⟩
  | .hbm, ⟨11, _⟩ => ⟨S8192x4096, .bf16⟩
  | .hbm, ⟨12, _⟩ => ⟨S1x6144, .f32⟩
  | .hbm, ⟨13, _⟩ => ⟨S8192x6144, .f32⟩
  | .hbm, ⟨14, _⟩ => ⟨S4x2048x6144, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S48x32_S48x128x32_0_2 : S48x32.BroadcastsInDim S48x128x32 (![0, 2] : Fin 2 → Fin S48x128x32.rank)
  shapeCasts_S48x128x32_S6144x32 : S48x128x32.ShapeCasts S6144x32
  bcast_S6144x32_S6144x32x128_0_1 : S6144x32.BroadcastsInDim S6144x32x128 (![0, 1] : Fin 2 → Fin S6144x32x128.rank)
  shapeCasts_S6144x32x128_S6144x4096 : S6144x32x128.ShapeCasts S6144x4096
  bitsLt_bf16_f32 : FTy.bits .bf16 < FTy.bits .f32
  shapeCasts_S4x2048x4096_S8192x4096 : S4x2048x4096.ShapeCasts S8192x4096
  shapeCasts_S6144_S1x6144 : S6144.ShapeCasts S1x6144
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x6144_S4x2048x6144 : S8192x6144.ShapeCasts S4x2048x6144
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S6144x4096.size a
  hwx0_1 : ∀ i : grid0.Coords, EltTy.bits .bf16 = 32 ∨ (Rect.block (s := S6144x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x6144.size a
  hwx0_2 : ∀ i : grid0.Coords, EltTy.bits .f32 = 32 ∨ (Rect.block (s := S1x6144) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x6144.size a
  hwx0_3 : ∀ i : grid0.Coords, EltTy.bits .f32 = 32 ∨ (Rect.block (s := S8192x6144) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v7) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S6144x4096 : Shape := ⟨2, ![6144, 4096]⟩
abbrev S48x32 : Shape := ⟨2, ![48, 32]⟩
abbrev S6144 : Shape := ⟨1, ![6144]⟩
abbrev S48x128x32 : Shape := ⟨3, ![48, 128, 32]⟩
abbrev S6144x32 : Shape := ⟨2, ![6144, 32]⟩
abbrev S6144x32x128 : Shape := ⟨3, ![6144, 32, 128]⟩
abbrev S4x2048x6144 : Shape := ⟨3, ![4, 2048, 6144]⟩
abbrev S1x1x6144 : Shape := ⟨3, ![1, 1, 6144]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S6144x4096, .f32⟩
  | .hbm, ⟨2, _⟩ => ⟨S48x32, .f32⟩
  | .hbm, ⟨3, _⟩ => ⟨S6144, .f32⟩
  | .hbm, ⟨4, _⟩ => ⟨S48x128x32, .f32⟩
  | .hbm, ⟨5, _⟩ => ⟨S6144x32, .f32⟩
  | .hbm, ⟨6, _⟩ => ⟨S6144x32x128, .f32⟩
  | .hbm, ⟨7, _⟩ => ⟨S6144x4096, .f32⟩
  | .hbm, ⟨8, _⟩ => ⟨S6144x4096, .f32⟩
  | .hbm, ⟨9, _⟩ => ⟨S4x2048x6144, .f32⟩
  | .hbm, ⟨10, _⟩ => ⟨S1x1x6144, .f32⟩
  | .hbm, ⟨11, _⟩ => ⟨S4x2048x6144, .f32⟩
  | .hbm, ⟨12, _⟩ => ⟨S4x2048x6144, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S48x32_S48x128x32_0_2 : S48x32.BroadcastsInDim S48x128x32 (![0, 2] : Fin 2 → Fin S48x128x32.rank)
  shapeCasts_S48x128x32_S6144x32 : S48x128x32.ShapeCasts S6144x32
  bcast_S6144x32_S6144x32x128_0_1 : S6144x32.BroadcastsInDim S6144x32x128 (![0, 1] : Fin 2 → Fin S6144x32x128.rank)
  shapeCasts_S6144x32x128_S6144x4096 : S6144x32x128.ShapeCasts S6144x4096
  bcast_S6144_S1x1x6144_2 : S6144.BroadcastsInDim S1x1x6144 (![2] : Fin 1 → Fin S1x1x6144.rank)
  bcast_S1x1x6144_S4x2048x6144_0_1_2 : S1x1x6144.BroadcastsInDim S4x2048x6144 (![0, 1, 2] : Fin 3 → Fin S4x2048x6144.rank)
  dot_S4x2048x4096_S6144x4096_S4x2048x6144_2_1_01_0_n_n_wf : DotDims.WF S4x2048x4096 S6144x4096 S4x2048x6144 [2] [1] [0, 1] [0] [] []

variable [Facts₀]

def dot_S4x2048x4096_S6144x4096_S4x2048x6144_2_1_01_0_n_n : DotDims S4x2048x4096 S6144x4096 S4x2048x6144 where
  lhsContracting := [2]
  rhsContracting := [1]
  lhsNonContracting := [0, 1]
  rhsNonContracting := [0]
  lhsBatch := []
  rhsBatch := []
  wf := dot_S4x2048x4096_S6144x4096_S4x2048x6144_2_1_01_0_n_n_wf

class Facts : Prop extends Facts₀ where

variable [Facts]
-- ==== Proof.Linear.lean ====
/-
  The scaled linear layer as ONE function of its arrays, over the extended reals.

  With activations `x[b, s, k]`, a weight matrix `W[o, k]` (the stored weights already multiplied by their block scales)
  and a bias `β[o]`, the layer's result is

      y[b, s, o] = Σ_k x[b, s, k] · W[o, k] + β[o],

  every row of activations against every row of weights, contracted over the shared last axis of length 4096.
  `batched` states it over the three-axis activations `[4, 2048, 4096]`; `rows` states it with the `4 · 2048 = 8192`
  positions flattened to the rows of one matrix and the bias kept as a one-row matrix `[1, 6144]`.
  `batched_of_rows`: the second form, its operands read through the row-major regrouping of their axes and its result
  regrouped back, is the first. Only the regrouping of indices is used: position `(b, s)` is row `2048 b + s`; no law of
  arithmetic on the extended reals is needed, so the statement holds at infinite entries too.
-/
import Idealize.ShloMosaic.PureOps.Ideal
import Idealize.ShloMosaic.Lib.ValueIdx
import Idealize.ShloMosaic.Lib.ValueLayout
import Idealize.ShloMosaic.Lib.Pipeline.Value

noncomputable section

open scoped BigOperators

namespace Cert.Linear

open Idealize.ShloMosaic Idealize.ShloMosaic.ValueIdx

/-- Row `r` of the activations against row `o` of the weights, plus the bias at `o`. -/
def rowEntry (X : (⟨2, ![8192, 4096]⟩ : Shape).Idx → EReal) (W : (⟨2, ![6144, 4096]⟩ : Shape).Idx → EReal)
    (B : (⟨2, ![1, 6144]⟩ : Shape).Idx → EReal) (r : Fin 8192) (o : Fin 6144) : EReal :=
  (∑ k : Fin 4096, X (ix2 r k) * W (ix2 o k)) + B (ix2 (0 : Fin 1) o)

/-- The layer over flattened positions: entry `(r, o)` is `Σ_k X[r, k] · W[o, k] + B[0, o]`. -/
def rows (X : (⟨2, ![8192, 4096]⟩ : Shape).Idx → EReal) (W : (⟨2, ![6144, 4096]⟩ : Shape).Idx → EReal)
    (B : (⟨2, ![1, 6144]⟩ : Shape).Idx → EReal) : (⟨2, ![8192, 6144]⟩ : Shape).Idx → EReal :=
  fun j => rowEntry X W B (j 0) (j 1)

theorem rows_apply (X : (⟨2, ![8192, 4096]⟩ : Shape).Idx → EReal) (W : (⟨2, ![6144, 4096]⟩ : Shape).Idx → EReal)
    (B : (⟨2, ![1, 6144]⟩ : Shape).Idx → EReal) (r : Fin 8192) (o : Fin 6144) :
    rows X W B (ix2 r o) = (∑ k : Fin 4096, X (ix2 r k) * W (ix2 o k)) + B (ix2 (0 : Fin 1) o) := rfl

/-- Position `(b, s)` of the activations against row `o` of the weights, plus the bias at `o`. -/
def batchEntry (x : (⟨3, ![4, 2048, 4096]⟩ : Shape).Idx → EReal) (W : (⟨2, ![6144, 4096]⟩ : Shape).Idx → EReal)
    (β : (⟨1, ![6144]⟩ : Shape).Idx → EReal) (b : Fin 4) (s : Fin 2048) (o : Fin 6144) : EReal :=
  (∑ k : Fin 4096, x (ix3 b s k) * W (ix2 o k)) + β (ix1 o)

/-- The layer: entry `(b, s, o)` is `Σ_k x[b, s, k] · W[o, k] + β[o]`. -/
def batched (x : (⟨3, ![4, 2048, 4096]⟩ : Shape).Idx → EReal) (W : (⟨2, ![6144, 4096]⟩ : Shape).Idx → EReal)
    (β : (⟨1, ![6144]⟩ : Shape).Idx → EReal) : (⟨3, ![4, 2048, 6144]⟩ : Shape).Idx → EReal :=
  fun i => batchEntry x W β (i 0) (i 1) (i 2)

theorem batched_apply (x : (⟨3, ![4, 2048, 4096]⟩ : Shape).Idx → EReal) (W : (⟨2, ![6144, 4096]⟩ : Shape).Idx → EReal)
    (β : (⟨1, ![6144]⟩ : Shape).Idx → EReal) (b : Fin 4) (s : Fin 2048) (o : Fin 6144) :
    batched x W β (ix3 b s o) = (∑ k : Fin 4096, x (ix3 b s k) * W (ix2 o k)) + β (ix1 o) := rfl

/-- The row of the flattened matrices that holds position `(b, s)`. -/
def rowOf (b : Fin 4) (s : Fin 2048) : Fin 8192 := ⟨b.val * 2048 + s.val, by omega⟩

/-- The flattened activations at row `2048 b + s` are the activations at `(b, s)`. -/
theorem flat_apply (x : (⟨3, ![4, 2048, 4096]⟩ : Shape).Idx → EReal)
    (hx : (⟨3, ![4, 2048, 4096]⟩ : Shape).ShapeCasts ⟨2, ![8192, 4096]⟩) (b : Fin 4) (s : Fin 2048) (k : Fin 4096) :
    shapeCast ⟨2, ![8192, 4096]⟩ x hx (ix2 (rowOf b s) k) = x (ix3 b s k) :=
  shapeCast_apply x hx _ _ (by
    rw [Shape.rowMajor_val_three, Shape.rowMajor_val_two]
    show (b.val * 2048 + s.val) * 4096 + k.val = (b.val * 2048 + s.val) * 4096 + k.val
    rfl)

/-- The layer over flattened positions, regrouped to `[4, 2048, 6144]`, is the layer. -/
theorem batched_of_rows (x : (⟨3, ![4, 2048, 4096]⟩ : Shape).Idx → EReal) (W : (⟨2, ![6144, 4096]⟩ : Shape).Idx → EReal)
    (β : (⟨1, ![6144]⟩ : Shape).Idx → EReal)
    (hx : (⟨3, ![4, 2048, 4096]⟩ : Shape).ShapeCasts ⟨2, ![8192, 4096]⟩)
    (hβ : (⟨1, ![6144]⟩ : Shape).ShapeCasts ⟨2, ![1, 6144]⟩)
    (hy : (⟨2, ![8192, 6144]⟩ : Shape).ShapeCasts ⟨3, ![4, 2048, 6144]⟩) :
    shapeCast ⟨3, ![4, 2048, 6144]⟩ (rows (shapeCast ⟨2, ![8192, 4096]⟩ x hx) W (shapeCast ⟨2, ![1, 6144]⟩ β hβ)) hy
      = batched x W β := by
  funext i
  obtain ⟨b, s, o, rfl⟩ : ∃ (b : Fin 4) (s : Fin 2048) (o : Fin 6144), i = ix3 b s o := ⟨i 0, i 1, i 2, eq_ix3 i⟩
  rw [shapeCast_apply _ hy (ix3 b s o) (ix2 (rowOf b s) o) (by
    rw [Shape.rowMajor_val_three, Shape.rowMajor_val_two]
    show (b.val * 2048 + s.val) * 6144 + o.val = (b.val * 2048 + s.val) * 6144 + o.val
    rfl)]
  rw [rows_apply, batched_apply, shapeCast_a_1a_apply β hβ (0 : Fin 1) o]
  exact congrArg (· + β (ix1 o)) (Finset.sum_congr rfl fun k _ => by rw [flat_apply x hx b s k])

end Cert.Linear

end
-- ==== Proof.Entry.lean ====
/-
  The three arrays the tiled product reads, as functions of the layer's arguments.

  Before the tiles are computed the weights are multiplied, entry by entry, by their block scales — scale `(u, v)` of the
  48 × 32 table spread over the 128 × 128 block of weights it belongs to (`scaled`) —, the activations' leading two axes
  are merged into 8192 rows, and the bias becomes a one-row matrix. The activations and the scaled weights are then
  narrowed to a shorter float format, which at the extended reals changes nothing: a format change is the identity
  there, so the narrowed array IS the array.
-/
import proofs.«129247_j24988119728555_2_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem

/-- The stored weights times their block scales: `w[o, k] · s[o / 128, k / 128]`, the scale table spread over the
    weights' shape by two broadcasts and two regroupings of axes. -/
def scaled (w : FVec Ideal S6144x4096 .f32) (s : FVec Ideal S48x32 .f32) : FVec Ideal S6144x4096 .f32 :=
  mulf w (shapeCast S6144x4096 (broadcastInDim S6144x32x128 ![0, 1] bcast_S6144x32_S6144x32x128_0_1
    (shapeCast S6144x32 (broadcastInDim S48x128x32 ![0, 2] bcast_S48x32_S48x128x32_0_2 s) shapeCasts_S48x128x32_S6144x32))
    shapeCasts_S6144x32x128_S6144x4096)

variable (m : (ℓ : Loc nD τ sig) → Buf (Elt Ideal) ℓ)

/-- The activation rows the product reads: the activations with their two leading axes merged. -/
theorem acts (c : Dev nD) : (V m c main_v7 : S8192x4096.Idx → EReal)
    = shapeCast S8192x4096 (m ((c : Thread nD τ).loc main_arg0)) shapeCasts_S4x2048x4096_S8192x4096 := by
  show StableHlo.after hostOps0 (fun b => m (c, b)) (Proc.devRef .tc main_v7) = _
  after_results
  rfl

/-- The weight rows the product reads: the scaled weights. -/
theorem wts (c : Dev nD) : (V m c main_v5 : S6144x4096.Idx → EReal)
    = scaled (m ((c : Thread nD τ).loc main_arg1)) (m ((c : Thread nD τ).loc main_arg2)) := by
  show StableHlo.after hostOps0 (fun b => m (c, b)) (Proc.devRef .tc main_v5) = _
  after_results
  rfl

/-- The bias the product reads: the bias as a one-row matrix. -/
theorem bias (c : Dev nD) : (V m c main_v8 : S1x6144.Idx → EReal)
    = shapeCast S1x6144 (m ((c : Thread nD τ).loc main_arg3)) shapeCasts_S6144_S1x6144 := by
  show StableHlo.after hostOps0 (fun b => m (c, b)) (Proc.devRef .tc main_v8) = _
  after_results
  rfl

end Cert.KernelIdeal.Entry

end
-- ==== Proof.Tile.lean ====
/-
  One grid point's tile, entry by entry.

  At a grid point the body holds a block `A` of 1024 rows of the activations, a block `Wt` of 512 rows of the scaled
  weights and the matching 512 bias entries `b` as a one-row matrix, and stores the 1024 × 512 tile

      T[p, q] = Σ_k A[p, k] · Wt[q, k] + b[0, q].

  The product is accumulated into a zero tile, so at the extended reals it is the bare sum over the contracted axis
  (`Ideal.matmul_constant_zero_apply`); the contraction position of the dimension numbers — one axis of length 4096, the
  last axis of both operands — is identified with `k : Fin 4096`; the bias row is broadcast down the tile's rows. The
  shape casts of the loaded blocks are casts of a shape to itself.
-/
import proofs.«129247_j24988119728555_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The tile product's dimension numbers: both operands contract their last axis; the left operand's rows are the
    tile's rows, the right operand's rows the tile's columns. -/
abbrev dims : DotDims S1024x4096 S512x4096 S1024x512 := dot_S1024x4096_S512x4096_S1024x512_1_1_0_0_n_n

/-- The left operand is read on the tile entry's row … -/
theorem lhs_row (j : S1024x512.Idx) (κ : dims.contr.Idx) : (dims.lhsIdx j κ 0).val = (j 0).val := by
  unfold DotDims.lhsIdx
  rw [dif_neg (show ¬(0 : Fin S1024x4096.rank) ∈ dims.lhsBatch by decide),
    dif_pos (show (0 : Fin S1024x4096.rank) ∈ dims.lhsNonContracting by decide)]
  rfl
/-- … at the contraction position; -/
theorem lhs_col (j : S1024x512.Idx) (κ : dims.contr.Idx) : (dims.lhsIdx j κ 1).val = (κ ⟨0, by decide⟩).val :=
  dims.lhsIdx_val_of_single rfl j κ
/-- the right operand on the row named by the tile entry's column … -/
theorem rhs_row (j : S1024x512.Idx) (κ : dims.contr.Idx) : (dims.rhsIdx j κ 0).val = (j 1).val := by
  unfold DotDims.rhsIdx
  rw [dif_neg (show ¬(0 : Fin S512x4096.rank) ∈ dims.rhsBatch by decide),
    dif_pos (show (0 : Fin S512x4096.rank) ∈ dims.rhsNonContracting by decide)]
  rfl
/-- … at the contraction position. -/
theorem rhs_col (j : S1024x512.Idx) (κ : dims.contr.Idx) : (dims.rhsIdx j κ 1).val = (κ ⟨0, by decide⟩).val :=
  dims.rhsIdx_val_of_single rfl j κ

/-- The product of a block of activation rows with a block of weight rows, into a zero tile: entry `(p, q)` is the sum
    over `k` of row `p` of the one times row `q` of the other. -/
theorem product_apply (A : FVec Ideal S1024x4096 .bf16) (Wt : FVec Ideal S512x4096 .bf16) (p : Fin 1024) (q : Fin 512) :
    matmul dims none A Wt (constant (F := Ideal) S1024x512 .f32 0x00000000#32) (ix2 p q)
      = ∑ k : Fin 4096, A (ix2 p k) * Wt (ix2 q k) := by
  show FloatOps.matmul dims none A Wt (constant (F := Ideal) S1024x512 .f32 0x00000000#32) (ix2 p q) = _
  rw [Ideal.matmul_constant_zero_apply, ← Equiv.sum_comp (contrEquiv1 dims 4096 rfl rfl).symm]
  refine Finset.sum_congr rfl fun k _ => ?_
  have hk := contrEquiv1_symm_val dims 4096 rfl rfl k
  have el : dims.lhsIdx (ix2 p q) ((contrEquiv1 dims 4096 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 4096 rfl rfl).symm k) = ix2 q k := funext fun a => Fin.ext (by
    match a with
    | ⟨0, _⟩ => exact rhs_row _ _
    | ⟨1, _⟩ => exact (rhs_col _ _).trans hk)
  rw [el, er]

/-- THE TILE: what the body stores at a grid point, at entry `(p, q)`, from the three blocks it loads. -/
theorem payload_apply (A : FVec Ideal S1024x4096 .bf16) (Wt : FVec Ideal S512x4096 .bf16) (b : FVec Ideal S1x512 .f32)
    (p : Fin 1024) (q : Fin 512) :
    k0_pay1 (F := Ideal) A Wt b (ix2 p q) = (∑ k : Fin 4096, A (ix2 p k) * Wt (ix2 q k)) + b (ix2 (0 : Fin 1) q) := by
  unfold k0_pay1
  rw [shapeCast_self, shapeCast_self, shapeCast_self, addf_apply, product_apply,
    broadcastTo_1b_ab_apply b broadcasts_S1x512_S1024x512 p q]

end Cert.KernelIdeal.Tile

end
-- ==== Proof.Tiling.lean ====
/-
  From tiles to the whole product.

  The grid has 8 × 12 points. Point `(i, j)` reads rows `1024 i … 1024 i + 1023` of the activation rows `X`, rows
  `512 j … 512 j + 511` of the weight rows `W` and entries `512 j … 512 j + 511` of the bias row `B`, and writes the
  1024 × 512 tile at block `(i, j)` of the 8192 × 6144 result. By the tile's entry formula, entry `(p, q)` of that tile is

      Σ_k X[1024 i + p, k] · W[512 j + q, k] + B[0, 512 j + q],

  which is entry `(1024 i + p, 512 j + q)` of the one function `Linear.rows X W B`: every tile is a block of the same
  whole-array function (`tile_is_block`). The 96 tiles cover the result — the tile that holds entry `(r, o)` is the one
  at `(r / 1024, o / 512)` (`covered`) — so after the last point the result array is `Linear.rows X W B` (`product`).
-/
import proofs.«129247_j24988119728555_2_alg».proof.Proof.Gen.KernelIdeal.Frame
import proofs.«129247_j24988119728555_2_alg».proof.Proof.Linear
import proofs.«129247_j24988119728555_2_alg».proof.Proof.Tile
import Idealize.ShloMosaic.Lib.Pipeline.Value
import Idealize.ShloMosaic.Lib.ValueIdx

noncomputable section

open scoped BigOperators

namespace Cert.KernelIdeal.Tiling

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- Every access of the body starts at the corner of its buffer. -/
theorem corner : (![0, 0] : Fin 2 → Nat) = fun _ => 0 := funext fun a => by fin_cases a <;> rfl

/-- Which blocks a point reads, against the block it writes, over the whole grid: the activation block is the tile's
    row block (all columns), the weight block and the bias block the tile's column block; and the tile's block
    coordinates stay below 8 and 12. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) < 8 ∧ win0_3.index t (1 : Fin 2) < 12 :=
  (by decide +kernel : ∀ t : Fin grid0.N, _)

/-- Every block of the result is some point's tile. -/
theorem block_onto : ∀ (i : Fin 8) (j : Fin 12), ∃ t : Fin cfg0.N, win0_3.index t = ![i.val, j.val] :=
  (by decide +kernel : ∀ (i : Fin 8) (j : Fin 12), ∃ t : Fin grid0.N, win0_3.index t = ![i.val, j.val])

/-- The result row that holds row `p` of point `t`'s tile. -/
def row (t : Fin cfg0.N) (p : Fin 1024) : Fin 8192 :=
  ⟨win0_3.index t (0 : Fin 2) * 1024 + p.val, by have h := (block_indices t).2.2.2.2.2.2.1; omega⟩
/-- The result column that holds column `q` of point `t`'s tile. -/
def col (t : Fin cfg0.N) (q : Fin 512) : Fin 6144 :=
  ⟨win0_3.index t (1 : Fin 2) * 512 + q.val, by have h := (block_indices t).2.2.2.2.2.2.2; omega⟩

/-- Row `p` of the activation block at point `t` is row `row t p` of the activation rows. -/
theorem acts_block (c : Dev nD) (t : Fin cfg0.N) (p : Fin 1024) (k : Fin 4096) :
    (iblk m c 0 t : S1024x4096.Idx → EReal) (ix2 p k) = (V m c main_v7 : S8192x4096.Idx → EReal) (ix2 (row t p) k) := by
  obtain ⟨e0, e1, -⟩ := block_indices t
  show V m c main_v7 (((cfg0.win 0).blk t).view.emb (ix2 p k)) = V m c main_v7 (ix2 (row t p) k)
  congr 1
  funext a
  apply Fin.ext
  match a with
  | ⟨0, _⟩ => show win0_0.index t (0 : Fin 2) * 1024 + 1 * p.val = win0_3.index t (0 : Fin 2) * 1024 + p.val; omega
  | ⟨1, _⟩ => show win0_0.index t (1 : Fin 2) * 4096 + 1 * k.val = k.val; omega

/-- Row `q` of the weight block at point `t` is row `col t q` of the weight rows. -/
theorem wts_block (c : Dev nD) (t : Fin cfg0.N) (q : Fin 512) (k : Fin 4096) :
    (iblk m c 1 t : S512x4096.Idx → EReal) (ix2 q k) = (V m c main_v5 : S6144x4096.Idx → EReal) (ix2 (col t q) k) := by
  obtain ⟨-, -, e2, e3, -⟩ := block_indices t
  show V m c main_v5 (((cfg0.win 1).blk t).view.emb (ix2 q k)) = V m c main_v5 (ix2 (col t q) k)
  congr 1
  funext a
  apply Fin.ext
  match a with
  | ⟨0, _⟩ => show win0_1.index t (0 : Fin 2) * 512 + 1 * q.val = win0_3.index t (1 : Fin 2) * 512 + q.val; omega
  | ⟨1, _⟩ => show win0_1.index t (1 : Fin 2) * 4096 + 1 * k.val = k.val; omega

/-- Entry `q` of the bias block at point `t` is entry `col t q` of the bias row. -/
theorem bias_block (c : Dev nD) (t : Fin cfg0.N) (q : Fin 512) :
    (iblk m c 2 t : S1x512.Idx → EReal) (ix2 (0 : Fin 1) q) = (V m c main_v8 : S1x6144.Idx → EReal) (ix2 (0 : Fin 1) (col t q)) := by
  obtain ⟨-, -, -, -, e4, e5, -⟩ := block_indices t
  show V m c main_v8 (((cfg0.win 2).blk t).view.emb (ix2 (0 : Fin 1) q)) = V m c main_v8 (ix2 (0 : Fin 1) (col t q))
  congr 1
  funext a
  apply Fin.ext
  match a with
  | ⟨0, _⟩ => show win0_2.index t (0 : Fin 2) * 1 + 1 * 0 = 0; omega
  | ⟨1, _⟩ => show win0_2.index t (1 : Fin 2) * 512 + 1 * q.val = win0_3.index t (1 : Fin 2) * 512 + q.val; omega

/-- Entry `(p, q)` of point `t`'s tile sits at `(row t p, col t q)` of the result. -/
theorem tile_at (t : Fin cfg0.N) (p : Fin 1024) (q : Fin 512) :
    ((cfg0.win 3).blk t).view.emb (ix2 p q) = (ix2 (row t p) (col t q) : S8192x6144.Idx) := by
  funext a
  apply Fin.ext
  match a with
  | ⟨0, _⟩ => show win0_3.index t (0 : Fin 2) * 1024 + 1 * p.val = win0_3.index t (0 : Fin 2) * 1024 + p.val; omega
  | ⟨1, _⟩ => show win0_3.index t (1 : Fin 2) * 512 + 1 * q.val = win0_3.index t (1 : Fin 2) * 512 + q.val; omega

/-- EVERY TILE IS A BLOCK OF ONE FUNCTION: what point `t` writes back is block `t` of the product of the activation rows
    with the weight rows plus the bias row, as the tiled product finds the three arrays. -/
theorem tile_is_block (c : Dev nD) (t : Fin cfg0.N) :
    (dats m 0 c).flushed 3 t = ((cfg0.win 3).blk t).view.read (Elt Ideal)
      (Linear.rows (V m c main_v7) (V m c main_v5) (V m c main_v8)) := by
  show (cfg0.win 3).cut (grid0.coords t) ((dats m 0 c).after 3 t) = _
  rw [after0_3]
  unfold out0_3
  rw [View.canon_unit_zero corner]
  simp only [View.ld_unit_zero (S := S1024x4096) corner, View.ld_unit_zero (S := S512x4096) corner,
    View.ld_unit_zero (S := S1x512) corner]
  funext j
  obtain ⟨p, q, rfl⟩ : ∃ (p : Fin 1024) (q : Fin 512), j = ix2 p q := ⟨j 0, j 1, eq_ix2 j⟩
  show k0_pay1 (iblk m c 0 t) (iblk m c 1 t) (iblk m c 2 t) (ix2 p q)
    = Linear.rows (V m c main_v7) (V m c main_v5) (V m c main_v8) (((cfg0.win 3).blk t).view.emb (ix2 p q))
  rw [tile_at t p q, Linear.rows_apply]
  refine (Tile.payload_apply (iblk m c 0 t) (iblk m c 1 t) (iblk m c 2 t) p q).trans ?_
  rw [bias_block m c t q]
  exact congrArg (· + (V m c main_v8 : S1x6144.Idx → EReal) (ix2 (0 : Fin 1) (col t q)))
    (Finset.sum_congr rfl fun k _ => by rw [acts_block m c t p k, wts_block m c t q k])

/-- An entry of the result is in point `t`'s tile iff each coordinate is in the tile's range on its axis. -/
theorem mem_tile (t : Fin cfg0.N) (i : S8192x6144.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v9).slice (win0_3.rect t)).set ↔ _
  rw [View.set_slice_whole, Rect.mem_set_unit]
  exact Iff.rfl

/-- THE TILES COVER THE RESULT: entry `(r, o)` is in the tile at block `(r / 1024, o / 512)`, and every point writes its
    tile back. -/
theorem covered (i : S8192x6144.Idx) :
    ∃ t : Fin cfg0.N, (cfg0.win 3).flush t = true ∧ i ∈ ((cfg0.win 3).blk t).view.set := by
  have hi0 : (i 0).val < 8192 := (i 0).isLt
  have hi1 : (i 1).val < 6144 := (i 1).isLt
  obtain ⟨t, ht⟩ := block_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_tile]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-- THE WHOLE PRODUCT: after the last point the result array holds, entry by entry, the activation rows against the
    weight rows plus the bias row. -/
theorem product (c : Dev nD) : (dats m 0 c).arrAt 3 cfg0.N = Linear.rows (V m c main_v7) (V m c main_v5) (V m c main_v8) :=
  (dats m 0 c).arrAt_eq_of_cover 3 _ (fun t _ => tile_is_block m c t) covered

end Cert.KernelIdeal.Tiling

end
-- ==== Proof.Result.lean ====
/-
  What the program computes: the layer.

  After the tiled product the program regroups the 8192 × 6144 result's rows into the two position axes
  `[4, 2048, 6144]`. The product array is `Linear.rows` of the three arrays the tiles read (`Tiling.product`); those are
  the activations with their position axes merged, the scaled weights, and the bias as a one-row matrix
  (`Entry.acts`, `Entry.wts`, `Entry.bias`); and the product over merged positions, regrouped, is the layer over
  positions `(b, s)` (`Linear.batched_of_rows`). So every execution ends with the result array at
  `Σ_k x[b, s, k] · (w ⊙ scales)[o, k] + β[o]` and the four arguments as they were (`run`).
-/
import proofs.«129247_j24988119728555_2_alg».proof.Proof.Gen.KernelIdeal.Frame
import proofs.«129247_j24988119728555_2_alg».proof.Proof.Linear
import proofs.«129247_j24988119728555_2_alg».proof.Proof.Entry
import proofs.«129247_j24988119728555_2_alg».proof.Proof.Tiling
import Idealize.ShloMosaic.Lib.StableHlo.Run

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The program's result is the product array with its rows regrouped into positions. -/
theorem regrouped (c : Dev nD) :
    (Pipeline.afterTail₀ cfgs (dats m) 0 (V0 m) [hostOps1] c main_v10 : S4x2048x6144.Idx → EReal)
      = shapeCast S4x2048x6144 ((dats m 0 c).arrAt 3 cfg0.N) shapeCasts_S8192x6144_S4x2048x6144 := by
  have e : Pipeline.withArrays (cfgs 0).spec c (V0 m c) (fun w => (dats m 0 c).arrAt w (cfgs 0).N) (Proc.devRef .tc main_v9)
      = (dats m 0 c).arrAt 3 cfg0.N :=
    Pipeline.withArrays_arr spec0 launch0.win.arr_inj c (V0 m c) (fun w => (dats m 0 c).arrAt w cfg0.N) 3
  unfold Pipeline.afterTail₀
  show StableHlo.after hostOps1 _ (Proc.devRef .tc main_v10) = _
  after_results
  exact congrArg (fun A => shapeCast S4x2048x6144 A shapeCasts_S8192x6144_S4x2048x6144) e

/-- THE RESULT: the layer of the activations, the weights times their block scales, and the bias. -/
theorem result (c : Dev nD) :
    (Pipeline.afterTail₀ cfgs (dats m) 0 (V0 m) [hostOps1] c main_v10 : S4x2048x6144.Idx → EReal)
      = Linear.batched (m ((c : Thread nD τ).loc main_arg0))
          (Entry.scaled (m ((c : Thread nD τ).loc main_arg1)) (m ((c : Thread nD τ).loc main_arg2)))
          (m ((c : Thread nD τ).loc main_arg3)) := by
  rw [regrouped, Tiling.product, Entry.acts, Entry.wts, Entry.bias]
  exact Linear.batched_of_rows _ _ _ _ _ _

/-- THE RUN, READ: every weakly fair execution terminates with the result array at the layer of the arguments and the
    arguments unchanged. -/
theorem run : θ_run defs (onTc (τ := τ) (main (F := Ideal))) ⟨m, fun _ => 0, ρ⟩ fun r => ∀ c : Dev nD,
      r.2.mem ((c.tc : Thread nD τ).loc main_v10)
        = Linear.batched (m ((c : Thread nD τ).loc main_arg0))
            (Entry.scaled (m ((c : Thread nD τ).loc main_arg1)) (m ((c : Thread nD τ).loc main_arg2)))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.Reference.lean ====
/-
  The reference computes the layer.

  The reference multiplies the weights by their spread block scales, contracts the activations' last axis against the
  scaled weights' last axis, and adds the bias broadcast along the two position axes. Read at an entry `(b, s, o)` — the
  contraction as a sum over `k : Fin 4096`, the broadcast bias at its one live coordinate — that is
  `Σ_k x[b, s, k] · W[o, k] + β[o]` with `W` the scaled weights: `Linear.batched`.
-/
import proofs.«129247_j24988119728555_2_alg».proof.Proof.Gen.ReferenceIdeal.Read
import proofs.«129247_j24988119728555_2_alg».proof.Proof.Linear
import Idealize.ShloMosaic.Lib.ValueIdx

noncomputable section

open scoped BigOperators

namespace Cert.ReferenceIdeal.Layer

open Cert.ReferenceIdeal Cert.ReferenceIdeal.Read Idealize.ShloMosaic Idealize.ShloMosaic.ValueIdx

/-- The reference's result, entry by entry, is the layer of the activations, the scaled weights and the bias. -/
theorem result_eq (x : (⟨S4x2048x4096, .f32⟩ : BufTy).Contents (Elt Ideal)) (w : (⟨S6144x4096, .f32⟩ : BufTy).Contents (Elt Ideal))
    (s : (⟨S48x32, .f32⟩ : BufTy).Contents (Elt Ideal)) (β : (⟨S6144, .f32⟩ : BufTy).Contents (Elt Ideal)) :
    val_main_v8 (F := Ideal) x w s β = Linear.batched x (val_main_v4 (F := Ideal) w s) β := by
  funext i
  obtain ⟨b, t, o, rfl⟩ : ∃ (b : Fin 4) (t : Fin 2048) (o : Fin 6144), i = ix3 b t o := ⟨i 0, i 1, i 2, eq_ix3 i⟩
  have el : ∀ k : Fin 4096, lidx_main_v5 (ix3 b t o) k = ix3 b t k := fun k => funext fun a => by
    match a with
    | ⟨0, _⟩ => rfl
    | ⟨1, _⟩ => rfl
    | ⟨2, _⟩ => rfl
  have er : ∀ k : Fin 4096, ridx_main_v5 (ix3 b t o) k = ix2 o k := fun k => funext fun a => by
    match a with
    | ⟨0, _⟩ => rfl
    | ⟨1, _⟩ => rfl
  have eb : idx_main_v6 (idx_main_v7 (ix3 b t o)) = ix1 o := funext fun a => by
    match a with
    | ⟨0, _⟩ => rfl
  rw [val_main_v8_apply, val_main_v5_apply, val_main_v7_apply, val_main_v6_apply, Linear.batched_apply, eb]
  exact congrArg (· + β (ix1 o)) (Finset.sum_congr rfl fun k _ => by rw [el k, er k])

end Cert.ReferenceIdeal.Layer

end
-- ==== Proof.lean ====
/-
  A linear layer with block-scaled weights, tiled, against its one-line reference.

  Both programs compute, for activations `x[b, s, k]` (`4 × 2048 × 4096`), stored weights `w[o, k]` (`6144 × 4096`), a
  table of block scales `σ[u, v]` (`48 × 32`, one scale per `128 × 128` block of weights) and a bias `β[o]`,

      y[b, s, o] = Σ_k x[b, s, k] · (w[o, k] · σ[o / 128, k / 128]) + β[o].

  The scaled weights `W = w ⊙ spread(σ)` are formed by the same four layout operations and one product in both programs,
  so they are carried as one function of `w` and `σ` and never opened. The reference contracts `x` against `W` over the
  last axis and adds the bias broadcast over positions (`Reference.lean`). The tiled program merges the two position axes
  into `8192` rows, narrows `x` and `W` to a shorter float format — the identity on extended reals —, computes the
  `8192 × 6144` product in `8 × 12` tiles of `1024 × 512`, each tile the full-length contraction of a block of rows of
  `x` with a block of rows of `W` into a zero tile plus the bias entries of its columns (`Tile.lean`), and regroups the
  rows back into positions. Every tile is a block of the one whole-array function `Linear.rows`, the tiles cover the
  result (`Tiling.lean`), and `Linear.rows` over merged positions is `Linear.batched` over positions
  (`Linear.lean`, `Result.lean`). The two results are therefore the same sums of the same products, entry by entry:
  no rearrangement of a sum and no law that could fail at an infinite entry is used, and the precondition that the inputs
  are finite is never opened. The idealization rewrote no operation, so that conjunct is `True`; the three frames are the
  programs' own runs with the result dropped.
-/
import proofs.«129247_j24988119728555_2_alg».proof.Defs
import proofs.«129247_j24988119728555_2_alg».proof.Proof.Gen.Kernel
import proofs.«129247_j24988119728555_2_alg».proof.Proof.Gen.Kernel.Skeleton
import proofs.«129247_j24988119728555_2_alg».proof.Proof.Gen.Kernel.Launch
import proofs.«129247_j24988119728555_2_alg».proof.Proof.Gen.Kernel.Points
import proofs.«129247_j24988119728555_2_alg».proof.Proof.Gen.Kernel.Frame
import proofs.«129247_j24988119728555_2_alg».proof.Proof.Gen.KernelIdeal
import proofs.«129247_j24988119728555_2_alg».proof.Proof.Gen.KernelIdeal.Skeleton
import proofs.«129247_j24988119728555_2_alg».proof.Proof.Gen.KernelIdeal.Launch
import proofs.«129247_j24988119728555_2_alg».proof.Proof.Gen.KernelIdeal.Points
import proofs.«129247_j24988119728555_2_alg».proof.Proof.Gen.KernelIdeal.Frame
import proofs.«129247_j24988119728555_2_alg».proof.Proof.Gen.ReferenceIdeal
import proofs.«129247_j24988119728555_2_alg».proof.Proof.Gen.ReferenceIdeal.Run
import proofs.«129247_j24988119728555_2_alg».proof.Proof.Gen.ReferenceIdeal.Read
import proofs.«129247_j24988119728555_2_alg».proof.Proof.Gen.Pre_finite_inputs
import proofs.«129247_j24988119728555_2_alg».proof.Proof.Linear
import proofs.«129247_j24988119728555_2_alg».proof.Proof.Entry
import proofs.«129247_j24988119728555_2_alg».proof.Proof.Result
import proofs.«129247_j24988119728555_2_alg».proof.Proof.Reference
import Idealize.ShloMosaic.Adequacy
import Idealize.ShloMosaic.Init

noncomputable section

namespace Cert.Proof

open Idealize.ShloMosaic Idealize.SL.Sem

/-- The word-level program terminates without a fault and leaves its arguments unchanged. -/
theorem frame_kernel : Cert.frame_Kernel := fun m ρ _ => Cert.Kernel.Gen.frame m ρ

/-- So does the program read over the extended reals. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs scale the weights by the same operations: the reference's scaled weights are the tiled program's. -/
theorem scaled_eq (w : FVec Ideal Cert.KernelIdeal.S6144x4096 .f32) (σ : FVec Ideal Cert.KernelIdeal.S48x32 .f32) :
    Cert.ReferenceIdeal.Read.val_main_v4 (F := Ideal) w σ = Cert.KernelIdeal.Entry.scaled w σ := rfl

/-- From memories that agree on the four arguments both programs end with the layer of those arguments as their
    result: the tiled program by `Result.run`, the reference by its run read entry by entry. -/
theorem algebraic : Cert.algebraic_KernelIdeal_ReferenceIdeal := by
  intro m ρ m' ρ' _ hagree
  refine ⟨fun c => Cert.Linear.batched (m ((c.tc : Thread Cert.KernelIdeal.nD Cert.KernelIdeal.τ).loc Cert.KernelIdeal.main_arg0))
      (Cert.KernelIdeal.Entry.scaled (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Layer.result_eq, scaled_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
